-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128x256 : Shape := ⟨4, ![8, 128, 128, 256]⟩
abbrev S256 : Shape := ⟨1, ![256]⟩
abbrev S1x1x512x256 : Shape := ⟨4, ![1, 1, 512, 256]⟩
abbrev S_ : Shape := ⟨0, ![]⟩

class Facts : Prop where
  bcast_S_S8x128x128x256 : S_.BroadcastsInDim S8x128x128x256 (![] : Fin 0 → Fin S8x128x128x256.rank)
  reducesTo_S8x128x128x256_S_d0_1_2_3 : S8x128x128x256.ReducesTo [0, 1, 2, 3] S_
  h_S_ : 0 < S_.numel
  bcast_S_S256 : S_.BroadcastsInDim S256 (![] : Fin 0 → Fin S256.rank)
  reducesTo_S256_S_d0 : S256.ReducesTo [0] S_
  bcast_S_S1x1x512x256 : S_.BroadcastsInDim S1x1x512x256 (![] : Fin 0 → Fin S1x1x512x256.rank)
  reducesTo_S1x1x512x256_S_d0_1_2_3 : S1x1x512x256.ReducesTo [0, 1, 2, 3] S_

variable [Facts]

def fn_part1 {F : FTy → Type} [FloatOps F] (main_arg4 : FVec F S1x1x512x256 .f32) (main_arg5 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S1x1x512x256 .f32 := Host.absf main_arg4
  let main_cst_6 : FVec F S_ .f32 := constant S_ .f32 0x7F800000#32
  let main_v20 : FVec F S1x1x512x256 .f32 := broadcastInDim S1x1x512x256 ![] bcast_S_S1x1x512x256 main_cst_6
  let main_v21 : IVec S1x1x512x256 1 := cmpf .olt main_v19 main_v20
  let main_c_7 : IVec S_ 1 := constantI S_ 1 1#1
  let main_v22 : IVec S_ 1 := (fun x v => Host.reduce IntOp.andi x v reducesTo_S1x1x512x256_S_d0_1_2_3 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S8x128x128x256 .f32) (main_arg1 : FVec F S8x128x128x256 .f32) (main_arg2 : FVec F S256 .f32) (main_arg3 : FVec F S256 .f32) (main_arg4 : FVec F S1x1x512x256 .f32) (main_arg5 : FVec F S256 .f32) : IVec S_ 1 :=
  let main_v0 : FVec F S8x128x128x256 .f32 := Host.absf main_arg0
  let main_cst : FVec F S_ .f32 := constant S_ .f32 0x7F800000#32
  let main_v1 : FVec F S8x128x128x256 .f32 := broadcastInDim S8x128x128x256 ![] bcast_S_S8x128x128x256 main_cst
  let main_v2 : IVec S8x128x128x256 1 := cmpf .olt main_v0 main_v1
  let main_c : IVec S_ 1 := constantI S_ 1 1#1
  let main_v3 : IVec S_ 1 := (fun x v => Host.reduce IntOp.andi x v reducesTo_S8x128x128x256_S_d0_1_2_3 h_S_) main_v2 main_c
  let main_v4 : FVec F S8x128x128x256 .f32 := Host.absf main_arg1
  let main_cst_0 : FVec F S_ .f32 := constant S_ .f32 0x7F800000#32
  let main_v5 : FVec F S8x128x128x256 .f32 := broadcastInDim S8x128x128x256 ![] bcast_S_S8x128x128x256 main_cst_0
  let main_v6 : IVec S8x128x128x256 1 := cmpf .olt main_v4 main_v5
  let main_c_1 : IVec S_ 1 := constantI S_ 1 1#1
  let main_v7 : IVec S_ 1 := (fun x v => Host.reduce IntOp.andi x v reducesTo_S8x128x128x256_S_d0_1_2_3 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S8x128x128x256 : Shape := ⟨4, ![8, 128, 128, 256]⟩
abbrev S256 : Shape := ⟨1, ![256]⟩
abbrev S1x1x512x256 : Shape := ⟨4, ![1, 1, 512, 256]⟩
abbrev S131072x256 : Shape := ⟨2, ![131072, 256]⟩
abbrev S512x256 : Shape := ⟨2, ![512, 256]⟩
abbrev S256x256 : Shape := ⟨2, ![256, 256]⟩
abbrev S1x256 : Shape := ⟨2, ![1, 256]⟩
abbrev S4096x256 : Shape := ⟨2, ![4096, 256]⟩

abbrev nBuf : Space → Nat
  | .hbm => 16
  | .vmem => 11
  | .smem => 0
  | _ => 0

abbrev bufTy : (tb : Table) → Fin (tcTables nBuf tb) → BufTy
  | .hbm, ⟨0, _⟩ => ⟨S8x128x128x256, .f32⟩
  | .hbm, ⟨1, _⟩ => ⟨S8x128x128x256, .f32⟩
  | .hbm, ⟨2, _⟩ => ⟨S256, .f32⟩
  | .hbm, ⟨3, _⟩ => ⟨S256, .f32⟩
  | .hbm, ⟨4, _⟩ => ⟨S1x1x512x256, .f32⟩
  | .hbm, ⟨5, _⟩ => ⟨S256, .f32⟩
  | .hbm, ⟨6, _⟩ => ⟨S131072x256, .f32⟩
  | .hbm, ⟨7, _⟩ => ⟨S131072x256, .f32⟩
  | .hbm, ⟨8, _⟩ => ⟨S512x256, .f32⟩
  | .hbm, ⟨9, _⟩ => ⟨S256x256, .f32⟩
  | .hbm, ⟨10, _⟩ => ⟨S256x256, .f32⟩
  | .hbm, ⟨11, _⟩ => ⟨S1x256, .f32⟩
  | .hbm, ⟨12, _⟩ => ⟨S1x256, .f32⟩
  | .hbm, ⟨13, _⟩ => ⟨S1x256, .f32⟩
  | .hbm, ⟨14, _⟩ => ⟨S131072x256, .f32⟩
  | .hbm, ⟨15, _⟩ => ⟨S8x128x128x256, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S1x256, .f32⟩
  | .local _ .vmem, ⟨5, _⟩ => ⟨S1x256, .f32⟩
  | .local _ .vmem, ⟨6, _⟩ => ⟨S256x256, .f32⟩
  | .local _ .vmem, ⟨7, _⟩ => ⟨S256x256, .f32⟩
  | .local _ .vmem, ⟨8, _⟩ => ⟨S1x256, .f32⟩
  | .local _ .vmem, ⟨9, _⟩ => ⟨S4096x256, .f32⟩
  | .local _ .vmem, ⟨10, _⟩ => ⟨S4096x256, .f32⟩
  | _, _ => ⟨S8x128x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S8x128x128x256_S131072x256 : S8x128x128x256.ShapeCasts S131072x256
  shapeCasts_S1x1x512x256_S512x256 : S1x1x512x256.ShapeCasts S512x256
  slices_S512x256_S256x256_0_0 : S512x256.Slices ![0, 0] S256x256
  slices_S512x256_S256x256_256_0 : S512x256.Slices ![256, 0] S256x256
  shapeCasts_S256_S1x256 : S256.ShapeCasts S1x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S131072x256_S8x128x128x256 : S131072x256.ShapeCasts S8x128x128x256
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S131072x256.size a
  hwx0_1 : ∀ i : grid0.Coords, EltTy.bits .f32 = 32 ∨ (Rect.block (s := S131072x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x256.size a ≤ S131072x256.size a
  hwx0_7 : ∀ i : grid0.Coords, EltTy.bits .f32 = 32 ∨ (Rect.block (s := S131072x256) S4096x256.size (cc0_transform_7 i) (hinb0_7 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_v0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S4096x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x128x128x256 : Shape := ⟨4, ![8, 128, 128, 256]⟩
abbrev S256 : Shape := ⟨1, ![256]⟩
abbrev S1x1x512x256 : Shape := ⟨4, ![1, 1, 512, 256]⟩
abbrev S1x1x1x256 : Shape := ⟨4, ![1, 1, 1, 256]⟩
abbrev S8x128x128x512 : Shape := ⟨4, ![8, 128, 128, 512]⟩
abbrev S512x256 : Shape := ⟨2, ![512, 256]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8x128x128x256, .f32⟩
  | .hbm, ⟨1, _⟩ => ⟨S8x128x128x256, .f32⟩
  | .hbm, ⟨2, _⟩ => ⟨S256, .f32⟩
  | .hbm, ⟨3, _⟩ => ⟨S256, .f32⟩
  | .hbm, ⟨4, _⟩ => ⟨S1x1x512x256, .f32⟩
  | .hbm, ⟨5, _⟩ => ⟨S256, .f32⟩
  | .hbm, ⟨6, _⟩ => ⟨S1x1x1x256, .f32⟩
  | .hbm, ⟨7, _⟩ => ⟨S8x128x128x256, .f32⟩
  | .hbm, ⟨8, _⟩ => ⟨S8x128x128x256, .f32⟩
  | .hbm, ⟨9, _⟩ => ⟨S1x1x1x256, .f32⟩
  | .hbm, ⟨10, _⟩ => ⟨S8x128x128x256, .f32⟩
  | .hbm, ⟨11, _⟩ => ⟨S8x128x128x256, .f32⟩
  | .hbm, ⟨12, _⟩ => ⟨S8x128x128x512, .f32⟩
  | .hbm, ⟨13, _⟩ => ⟨S512x256, .f32⟩
  | .hbm, ⟨14, _⟩ => ⟨S8x128x128x256, .f32⟩
  | .hbm, ⟨15, _⟩ => ⟨S1x1x1x256, .f32⟩
  | .hbm, ⟨16, _⟩ => ⟨S8x128x128x256, .f32⟩
  | .hbm, ⟨17, _⟩ => ⟨S8x128x128x256, .f32⟩
  | .hbm, ⟨18, _⟩ => ⟨S_, .f32⟩
  | .hbm, ⟨19, _⟩ => ⟨S8x128x128x256, .f32⟩
  | .hbm, ⟨20, _⟩ => ⟨S8x128x128x256, .f32⟩
  | _, _ => ⟨S8x128x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_cst : Ref sig .tc := ⟨.hbm, 18, rfl⟩
abbrev main_call0_v0 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  bcast_S256_S1x1x1x256_3 : S256.BroadcastsInDim S1x1x1x256 (![3] : Fin 1 → Fin S1x1x1x256.rank)
  bcast_S1x1x1x256_S8x128x128x256_0_1_2_3 : S1x1x1x256.BroadcastsInDim S8x128x128x256 (![0, 1, 2, 3] : Fin 4 → Fin S8x128x128x256.rank)
  concatenates_S8x128x128x256_S8x128x128x256_S8x128x128x512_d3 : Shape.Concatenates [S8x128x128x256, S8x128x128x256] S8x128x128x512 3
  shapeCasts_S1x1x512x256_S512x256 : S1x1x512x256.ShapeCasts S512x256
  bcast_S_S8x128x128x256 : S_.BroadcastsInDim S8x128x128x256 (![] : Fin 0 → Fin S8x128x128x256.rank)
  dot_S8x128x128x512_S512x256_S8x128x128x256_3_0_012_1_n_n_wf : DotDims.WF S8x128x128x512 S512x256 S8x128x128x256 [3] [0] [0, 1, 2] [1] [] []

variable [Facts₀]

def dot_S8x128x128x512_S512x256_S8x128x128x256_3_0_012_1_n_n : DotDims S8x128x128x512 S512x256 S8x128x128x256 where
  lhsContracting := [3]
  rhsContracting := [0]
  lhsNonContracting := [0, 1, 2]
  rhsNonContracting := [1]
  lhsBatch := []
  rhsBatch := []
  wf := dot_S8x128x128x512_S512x256_S8x128x128x256_3_0_012_1_n_n_wf

class Facts : Prop extends Facts₀ where

variable [Facts]
-- ==== Proof.Body.lean ====
/-
  The kernel body's stored value, read at one entry of its 4096×256 block.

  With every float an extended real and every change of format the identity, entry (p, q) of the block is
    max ( Σ_k (x0[p,k] + b0[0,k]) · w0[k,q]  +  Σ_k (x1[p,k] + b1[0,k]) · w1[k,q]  +  cb[0,q] , 0 ),
  k ranging over the 256 channels: two matrix products into zero accumulators (each a plain sum over the
  contracted axis), their sum, the bias row broadcast down the rows, and the rectifier.
-/
import proofs.«129288_j4561255268895_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen

/-- A 1×256 row broadcast over 4096 rows: entry (p, q) is the row's entry q. -/
theorem row_over_rows (b : FVec Ideal S1x256 .f32) (p : Fin 4096) (q : Fin 256) :
    broadcastTo S4096x256 b broadcasts_S1x256_S4096x256 (ix2 p q) = b (ix2 (0 : Fin 1) q) := by
  refine broadcastTo_apply b broadcasts_S1x256_S4096x256 (ix2 p q) (ix2 (0 : Fin 1) q) (fun a => ?_)
  match a with
  | ⟨0, _⟩ => show (0 : Nat) = if (1 : Nat) = 1 then 0 else _; rw [if_pos rfl]
  | ⟨1, _⟩ => show q.val = if (256 : Nat) = 1 then 0 else _; rw [if_neg (by decide)]; rfl

abbrev D := dot_S4096x256_S256x256_S4096x256_1_0_0_1_n_n

theorem lhs_row (i : S4096x256.Idx) (r : D.contr.Idx) : (D.lhsIdx i r 0).val = (i 0).val := by
  unfold DotDims.lhsIdx
  rw [dif_neg (show ¬(0 : Fin S4096x256.rank) ∈ D.lhsBatch by decide), dif_pos (show (0 : Fin S4096x256.rank) ∈ D.lhsNonContracting by decide)]
  rfl

theorem rhs_col (i : S4096x256.Idx) (r : D.contr.Idx) : (D.rhsIdx i r 1).val = (i 1).val := by
  unfold DotDims.rhsIdx
  rw [dif_neg (show ¬(1 : Fin S256x256.rank) ∈ D.rhsBatch by decide), dif_pos (show (1 : Fin S256x256.rank) ∈ D.rhsNonContracting by decide)]
  rfl

/-- A 4096×256 by 256×256 matrix product into a zero accumulator: entry (p, q) is Σ_k A[p,k] · B[k,q]. -/
theorem product_at (A : FVec Ideal S4096x256 .bf16) (B : FVec Ideal S256x256 .bf16) (p : Fin 4096) (q : Fin 256) :
    matmul D none A B (constant S4096x256 .f32 0x00000000#32) (ix2 p q) = ∑ k : Fin 256, A (ix2 p k) * B (ix2 k q) := by
  simp only [matmul]
  rw [Ideal.matmul_constant_zero_apply, ← Equiv.sum_comp (contrEquiv1 D 256 rfl rfl).symm]
  refine Finset.sum_congr rfl fun k _ => ?_
  have hk := contrEquiv1_symm_val D 256 rfl rfl k
  have el : D.lhsIdx (ix2 p q) ((contrEquiv1 D 256 rfl rfl).symm k) = ix2 p k := funext fun a => Fin.ext (by
    match a with
    | ⟨0, _⟩ => exact lhs_row _ _
    | ⟨1, _⟩ => exact (D.lhsIdx_val_of_single rfl _ _).trans hk)
  have er : D.rhsIdx (ix2 p q) ((contrEquiv1 D 256 rfl rfl).symm k) = ix2 k q := funext fun a => Fin.ext (by
    match a with
    | ⟨0, _⟩ => exact (D.rhsIdx_val_of_single rfl _ _).trans hk
    | ⟨1, _⟩ => exact rhs_col _ _)
  rw [el, er]

/-- The stored value at entry (p, q) of the block, as a function of the seven loaded blocks. -/
theorem stored_at (x0 x1 : Vec Ideal S4096x256 .f32) (b0 b1 : Vec Ideal S1x256 .f32) (w0 w1 : Vec Ideal S256x256 .f32)
    (cb : Vec Ideal S1x256 .f32) (p : Fin 4096) (q : Fin 256) :
    k0_pay1 (F := Ideal) x0 x1 b0 b1 w0 w1 cb (ix2 p q)
      = max ((∑ k : Fin 256, (x0 (ix2 p k) + b0 (ix2 (0 : Fin 1) k)) * w0 (ix2 k q))
            + (∑ k : Fin 256, (x1 (ix2 p k) + b1 (ix2 (0 : Fin 1) k)) * w1 (ix2 k q))
            + cb (ix2 (0 : Fin 1) q)) (Ideal.ofBits .f32 0x00000000#32) := by
  unfold k0_pay1
  rw [maximumf_apply, addf_apply, addf_apply, broadcast_apply, product_at, product_at, row_over_rows]
  simp only [truncf_apply, addf_apply, shapeCast_self, row_over_rows]
  rfl

end Cert.KernelIdeal.Body

end
-- ==== Proof.Spec.lean ====
/-
  The result both programs compute, as one function of the six argument arrays, and the layout facts that
  bring each side's arrangement of those arrays to it.

  For inputs x0, x1 : [8,128,128,256], biases b0, b1, cb : [256] and a 1×1 convolution weight w : [1,1,512,256],
  entry (a, b, c, q) of the result is
      max ( Σ_{k<256} (x0[a,b,c,k] + b0[k]) · w[0,0,k,q]  +  Σ_{k<256} (x1[a,b,c,k] + b1[k]) · w[0,0,256+k,q]  +  cb[q] , 0 ).
  One side reaches it through the flattened [131072,256] arrangement (row r = (a·128 + b)·128 + c), the two halves
  of the weight's 512 rows and 1×256 bias rows; the other through one sum over all 512 channels of the
  concatenation, which is the two half sums added (addition of extended reals is commutative and associative,
  so no finiteness is needed).
-/
import Idealize.ShloMosaic.PureOps.Ideal
import Idealize.ShloMosaic.Lib.ValueIdx
import Idealize.ShloMosaic.Lib.Pipeline.Value

noncomputable section

namespace Cert.Spec

open Idealize.ShloMosaic Idealize.ShloMosaic.ValueIdx

/-- Entry (a, b, c, q) of the result, from the six argument arrays. -/
def out (x0 x1 : (⟨4, ![8, 128, 128, 256]⟩ : Shape).Idx → EReal) (b0 b1 : (⟨1, ![256]⟩ : Shape).Idx → EReal)
    (w : (⟨4, ![1, 1, 512, 256]⟩ : Shape).Idx → EReal) (cb : (⟨1, ![256]⟩ : Shape).Idx → EReal)
    (a : Fin 8) (b c : Fin 128) (q : Fin 256) : EReal :=
  max ((∑ k : Fin 256, (x0 (ix4 a b c k) + b0 (ix1 k)) * w (ix4 (0 : Fin 1) (0 : Fin 1) (⟨k.val, Nat.lt_trans k.isLt (by decide)⟩ : Fin 512) q))
      + (∑ k : Fin 256, (x1 (ix4 a b c k) + b1 (ix1 k)) * w (ix4 (0 : Fin 1) (0 : Fin 1) (⟨256 + k.val, by have := k.isLt; omega⟩ : Fin 512) q))
      + cb (ix1 q)) (Ideal.ofBits .f32 0x00000000#32)

/-- Entry (r, q) of the flattened result, from the flattened inputs X0, X1 : [131072,256], the bias rows
    B0, B1, CB : [1,256] and the two halves W0, W1 : [256,256] of the weight. -/
def rowsAt (X0 X1 : (⟨2, ![131072, 256]⟩ : Shape).Idx → EReal) (B0 B1 : (⟨2, ![1, 256]⟩ : Shape).Idx → EReal)
    (W0 W1 : (⟨2, ![256, 256]⟩ : Shape).Idx → EReal) (CB : (⟨2, ![1, 256]⟩ : Shape).Idx → EReal)
    (r : Fin 131072) (q : Fin 256) : EReal :=
  max ((∑ k : Fin 256, (X0 (ix2 r k) + B0 (ix2 (0 : Fin 1) k)) * W0 (ix2 k q))
      + (∑ k : Fin 256, (X1 (ix2 r k) + B1 (ix2 (0 : Fin 1) k)) * W1 (ix2 k q))
      + CB (ix2 (0 : Fin 1) q)) (Ideal.ofBits .f32 0x00000000#32)

/-- The flattened result as an array. -/
def rows (X0 X1 : (⟨2, ![131072, 256]⟩ : Shape).Idx → EReal) (B0 B1 : (⟨2, ![1, 256]⟩ : Shape).Idx → EReal)
    (W0 W1 : (⟨2, ![256, 256]⟩ : Shape).Idx → EReal) (CB : (⟨2, ![1, 256]⟩ : Shape).Idx → EReal) :
    (⟨2, ![131072, 256]⟩ : Shape).Idx → EReal :=
  fun j => rowsAt X0 X1 B0 B1 W0 W1 CB (j 0) (j 1)

theorem rows_apply (X0 X1 : (⟨2, ![131072, 256]⟩ : Shape).Idx → EReal) (B0 B1 : (⟨2, ![1, 256]⟩ : Shape).Idx → EReal)
    (W0 W1 : (⟨2, ![256, 256]⟩ : Shape).Idx → EReal) (CB : (⟨2, ![1, 256]⟩ : Shape).Idx → EReal) (r : Fin 131072) (q : Fin 256) :
    rows X0 X1 B0 B1 W0 W1 CB (ix2 r q) = rowsAt X0 X1 B0 B1 W0 W1 CB r q := rfl

/-! ## The layout facts -/

/-- The [8,128,128,256] array flattened to [131072,256]: row (a·128 + b)·128 + c, column k is entry (a, b, c, k). -/
theorem flat_at (x : (⟨4, ![8, 128, 128, 256]⟩ : Shape).Idx → EReal)
    (h : (⟨4, ![8, 128, 128, 256]⟩ : Shape).ShapeCasts ⟨2, ![131072, 256]⟩)
    (a : Fin 8) (b c : Fin 128) (k : Fin 256) (r : Fin 131072) (hr : r.val = (a.val * 128 + b.val) * 128 + c.val) :
    shapeCast (⟨2, ![131072, 256]⟩ : Shape) x h (ix2 r k) = x (ix4 a b c k) := by
  refine shapeCast_apply x h (ix2 r k) (ix4 a b c k) ?_
  rw [Shape.rowMajor_val_four, Shape.rowMajor_val_two]
  show ((a.val * 128 + b.val) * 128 + c.val) * 256 + k.val = r.val * 256 + k.val
  rw [hr]

/-- A length-256 vector as a 1×256 row: entry (0, k) is entry k. -/
theorem row_at (v : (⟨1, ![256]⟩ : Shape).Idx → EReal) (h : (⟨1, ![256]⟩ : Shape).ShapeCasts ⟨2, ![1, 256]⟩) (k : Fin 256) :
    shapeCast (⟨2, ![1, 256]⟩ : Shape) v h (ix2 (0 : Fin 1) k) = v (ix1 k) := by
  refine shapeCast_apply v h (ix2 (0 : Fin 1) k) (ix1 k) ?_
  rw [Shape.rowMajor_val_one, Shape.rowMajor_val_two]
  show k.val = 0 * 256 + k.val
  omega

/-- The weight as a [512,256] matrix: entry (j, q) is entry (0, 0, j, q). -/
theorem weight_at (w : (⟨4, ![1, 1, 512, 256]⟩ : Shape).Idx → EReal)
    (h : (⟨4, ![1, 1, 512, 256]⟩ : Shape).ShapeCasts ⟨2, ![512, 256]⟩) (j : Fin 512) (q : Fin 256) :
    shapeCast (⟨2, ![512, 256]⟩ : Shape) w h (ix2 j q) = w (ix4 (0 : Fin 1) (0 : Fin 1) j q) := by
  refine shapeCast_apply w h (ix2 j q) (ix4 (0 : Fin 1) (0 : Fin 1) j q) ?_
  rw [Shape.rowMajor_val_four, Shape.rowMajor_val_two]
  show ((0 * 1 + 0) * 512 + j.val) * 256 + q.val = j.val * 256 + q.val
  omega

/-- Rows off … off+255 of a [512,256] matrix: entry (k, q) is entry (off + k, q). -/
theorem half_at (M : (⟨2, ![512, 256]⟩ : Shape).Idx → EReal) (off : Nat)
    (h : (⟨2, ![512, 256]⟩ : Shape).Slices ![off, 0] ⟨2, ![256, 256]⟩) (k q : Fin 256) (j : Fin 512) (hj : j.val = off + k.val) :
    extractStridedSlice (⟨2, ![256, 256]⟩ : Shape) ![off, 0] M h (ix2 k q) = M (ix2 j q) := by
  refine extractStridedSlice_apply ![off, 0] M h (ix2 k q) (ix2 j q) (fun a => ?_)
  match a with
  | ⟨0, _⟩ => exact hj
  | ⟨1, _⟩ => show q.val = 0 + q.val; omega

/-- The [131072,256] array as [8,128,128,256]: entry (a, b, c, q) is row (a·128 + b)·128 + c, column q. -/
theorem unflat_at (Y : (⟨2, ![131072, 256]⟩ : Shape).Idx → EReal)
    (h : (⟨2, ![131072, 256]⟩ : Shape).ShapeCasts ⟨4, ![8, 128, 128, 256]⟩)
    (a : Fin 8) (b c : Fin 128) (q : Fin 256) (r : Fin 131072) (hr : r.val = (a.val * 128 + b.val) * 128 + c.val) :
    shapeCast (⟨4, ![8, 128, 128, 256]⟩ : Shape) Y h (ix4 a b c q) = Y (ix2 r q) := by
  refine shapeCast_apply Y h (ix4 a b c q) (ix2 r q) ?_
  rw [Shape.rowMajor_val_four, Shape.rowMajor_val_two]
  show r.val * 256 + q.val = ((a.val * 128 + b.val) * 128 + c.val) * 256 + q.val
  rw [hr]

/-- A sum over 512 channels is the sum over the first 256 plus the sum over the last 256. -/
theorem sum_halves {M : Type} [AddCommMonoid M] (f : Fin 512 → M) :
    ∑ k : Fin 512, f k
      = (∑ k : Fin 256, f (⟨k.val, Nat.lt_trans k.isLt (by decide)⟩ : Fin 512))
        + ∑ k : Fin 256, f (⟨256 + k.val, by have := k.isLt; omega⟩ : Fin 512) :=
  Fin.sum_univ_add (a := 256) (b := 256) f

end Cert.Spec

end
-- ==== Proof.Blocks.lean ====
/-
  From the blocks the grid writes back to the whole output array of the launch.

  The launch runs 32 points; point t reads rows 4096·t … 4096·t + 4095 of the two flattened inputs, the whole of
  the bias rows and of the two weight halves, and writes back rows 4096·t … 4096·t + 4095 of the output. Every
  entry the body stores depends only on its own row of the inputs, so block t of the output is block t of ONE
  function of the whole operand arrays (`Spec.rows`); the 32 blocks tile the 131072 rows, so after the last
  write-back the array is that function.
-/
import proofs.«129288_j4561255268895_2_alg».proof.Proof.Gen.KernelIdeal.Frame
import proofs.«129288_j4561255268895_2_alg».proof.Proof.Body
import proofs.«129288_j4561255268895_2_alg».proof.Proof.Spec
import Idealize.ShloMosaic.Lib.Pipeline.Value

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

theorem zeros : (![0, 0] : Fin 2 → Nat) = fun _ => 0 := funext fun a => by fin_cases a <;> rfl

/-- Which block each operand's window is on at point t: the inputs and the output on block row t, the biases
    and the weight halves on their only block. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## Each operand's block, read off its array -/

/-- Row p of input 0's block at point t is row 4096·t + p of the flattened input. -/
theorem read0 (c : Dev nD) (t : Fin cfg0.N) (p : Fin 4096) (k : Fin 256) (r : Fin 131072) (hr : r.val = 4096 * t.val + p.val) :
    (iblk m c 0 t : Vec Ideal S4096x256 .f32) (ix2 p k) = (V m c main_v0 : S131072x256.Idx → EReal) (ix2 r k) := by
  obtain ⟨e0, e1, -⟩ := block_indices t
  unfold iblk
  rw [View.read_apply]
  show V m c main_v0 _ = V m c main_v0 _
  refine congrArg (V m c main_v0) (funext fun a => Fin.ext ?_)
  match a with
  | ⟨0, _⟩ => show win0_0.index t (0 : Fin 2) * 4096 + 1 * p.val = r.val; rw [e0, hr]; omega
  | ⟨1, _⟩ => show win0_0.index t (1 : Fin 2) * 256 + 1 * k.val = k.val; rw [e1]; omega

/-- Row p of input 1's block at point t is row 4096·t + p of the flattened input. -/
theorem read1 (c : Dev nD) (t : Fin cfg0.N) (p : Fin 4096) (k : Fin 256) (r : Fin 131072) (hr : r.val = 4096 * t.val + p.val) :
    (iblk m c 1 t : Vec Ideal S4096x256 .f32) (ix2 p k) = (V m c main_v1 : S131072x256.Idx → EReal) (ix2 r k) := by
  obtain ⟨-, -, e0, e1, -⟩ := block_indices t
  unfold iblk
  rw [View.read_apply]
  show V m c main_v1 _ = V m c main_v1 _
  refine congrArg (V m c main_v1) (funext fun a => Fin.ext ?_)
  match a with
  | ⟨0, _⟩ => show win0_1.index t (0 : Fin 2) * 4096 + 1 * p.val = r.val; rw [e0, hr]; omega
  | ⟨1, _⟩ => show win0_1.index t (1 : Fin 2) * 256 + 1 * k.val = k.val; rw [e1]; omega

/-- The first bias row's block is the row. -/
theorem read2 (c : Dev nD) (t : Fin cfg0.N) (y : S1x256.Idx) :
    (iblk m c 2 t : Vec Ideal S1x256 .f32) y = (V m c main_v5 : S1x256.Idx → EReal) y := by
  obtain ⟨-, -, -, -, e0, e1, -⟩ := block_indices t
  unfold iblk
  rw [View.read_apply]
  show V m c main_v5 _ = V m c main_v5 _
  refine congrArg (V m c main_v5) (funext fun a => Fin.ext ?_)
  match a with
  | ⟨0, _⟩ => show win0_2.index t (0 : Fin 2) * 1 + 1 * (y 0).val = (y 0).val; rw [e0]; omega
  | ⟨1, _⟩ => show win0_2.index t (1 : Fin 2) * 256 + 1 * (y 1).val = (y 1).val; rw [e1]; omega

/-- The second bias row's block is the row. -/
theorem read3 (c : Dev nD) (t : Fin cfg0.N) (y : S1x256.Idx) :
    (iblk m c 3 t : Vec Ideal S1x256 .f32) y = (V m c main_v6 : S1x256.Idx → EReal) y := by
  obtain ⟨-, -, -, -, -, -, e0, e1, -⟩ := block_indices t
  unfold iblk
  rw [View.read_apply]
  show V m c main_v6 _ = V m c main_v6 _
  refine congrArg (V m c main_v6) (funext fun a => Fin.ext ?_)
  match a with
  | ⟨0, _⟩ => show win0_3.index t (0 : Fin 2) * 1 + 1 * (y 0).val = (y 0).val; rw [e0]; omega
  | ⟨1, _⟩ => show win0_3.index t (1 : Fin 2) * 256 + 1 * (y 1).val = (y 1).val; rw [e1]; omega

/-- The first weight half's block is the half. -/
theorem read4 (c : Dev nD) (t : Fin cfg0.N) (y : S256x256.Idx) :
    (iblk m c 4 t : Vec Ideal S256x256 .f32) y = (V m c main_v3 : S256x256.Idx → EReal) y := by
  obtain ⟨-, -, -, -, -, -, -, -, e0, e1, -⟩ := block_indices t
  unfold iblk
  rw [View.read_apply]
  show V m c main_v3 _ = V m c main_v3 _
  refine congrArg (V m c main_v3) (funext fun a => Fin.ext ?_)
  match a with
  | ⟨0, _⟩ => show win0_4.index t (0 : Fin 2) * 256 + 1 * (y 0).val = (y 0).val; rw [e0]; omega
  | ⟨1, _⟩ => show win0_4.index t (1 : Fin 2) * 256 + 1 * (y 1).val = (y 1).val; rw [e1]; omega

/-- The second weight half's block is the half. -/
theorem read5 (c : Dev nD) (t : Fin cfg0.N) (y : S256x256.Idx) :
    (iblk m c 5 t : Vec Ideal S256x256 .f32) y = (V m c main_v4 : S256x256.Idx → EReal) y := by
  obtain ⟨-, -, -, -, -, -, -, -, -, -, e0, e1, -⟩ := block_indices t
  unfold iblk
  rw [View.read_apply]
  show V m c main_v4 _ = V m c main_v4 _
  refine congrArg (V m c main_v4) (funext fun a => Fin.ext ?_)
  match a with
  | ⟨0, _⟩ => show win0_5.index t (0 : Fin 2) * 256 + 1 * (y 0).val = (y 0).val; rw [e0]; omega
  | ⟨1, _⟩ => show win0_5.index t (1 : Fin 2) * 256 + 1 * (y 1).val = (y 1).val; rw [e1]; omega

/-- The output bias row's block is the row. -/
theorem read6 (c : Dev nD) (t : Fin cfg0.N) (y : S1x256.Idx) :
    (iblk m c 6 t : Vec Ideal S1x256 .f32) y = (V m c main_v7 : S1x256.Idx → EReal) y := by
  obtain ⟨-, -, -, -, -, -, -, -, -, -, -, -, e0, e1, -⟩ := block_indices t
  unfold iblk
  rw [View.read_apply]
  show V m c main_v7 _ = V m c main_v7 _
  refine congrArg (V m c main_v7) (funext fun a => Fin.ext ?_)
  match a with
  | ⟨0, _⟩ => show win0_6.index t (0 : Fin 2) * 1 + 1 * (y 0).val = (y 0).val; rw [e0]; omega
  | ⟨1, _⟩ => show win0_6.index t (1 : Fin 2) * 256 + 1 * (y 1).val = (y 1).val; rw [e1]; omega

/-! ## What a point stores is its rows of the one function -/

/-- If the loaded blocks are rows 4096·n … of X0, X1 and the whole of the small operands, the stored block's
    entry (p, q) is entry (4096·n + p, q) of `Spec.rows` of the whole operands. -/
theorem stored_is_rows (X0 X1 : (⟨2, ![131072, 256]⟩ : Shape).Idx → EReal) (B0 B1 : (⟨2, ![1, 256]⟩ : Shape).Idx → EReal)
    (W0 W1 : (⟨2, ![256, 256]⟩ : Shape).Idx → EReal) (CB : (⟨2, ![1, 256]⟩ : Shape).Idx → EReal)
    (x0 x1 : Vec Ideal S4096x256 .f32) (b0 b1 : Vec Ideal S1x256 .f32) (w0 w1 : Vec Ideal S256x256 .f32) (cb : Vec Ideal S1x256 .f32)
    (n : Nat)
    (h0 : ∀ (p : Fin 4096) (k : Fin 256) (r : Fin 131072), r.val = 4096 * n + p.val → x0 (ix2 p k) = X0 (ix2 r k))
    (h1 : ∀ (p : Fin 4096) (k : Fin 256) (r : Fin 131072), r.val = 4096 * n + p.val → x1 (ix2 p k) = X1 (ix2 r k))
    (hb0 : ∀ y, b0 y = B0 y) (hb1 : ∀ y, b1 y = B1 y) (hw0 : ∀ y, w0 y = W0 y) (hw1 : ∀ y, w1 y = W1 y) (hcb : ∀ y, cb y = CB y)
    (p : Fin 4096) (q : Fin 256) (r : Fin 131072) (hr : r.val = 4096 * n + p.val) :
    k0_pay1 (F := Ideal) x0 x1 b0 b1 w0 w1 cb (ix2 p q) = Spec.rows X0 X1 B0 B1 W0 W1 CB (ix2 r q) := by
  rw [Body.stored_at, Spec.rows_apply]
  unfold Spec.rowsAt
  simp only [h0 p _ r hr, h1 p _ r hr, hb0, hb1, hw0, hw1, hcb]

/-- WHAT POINT t WRITES BACK is block t of `Spec.rows` of the operand arrays as the launch finds them. -/
theorem flushed_eq (c : Dev nD) (t : Fin cfg0.N) :
    (dats m 0 c).flushed 7 t = ((cfg0.win 7).blk t).view.read (Elt Ideal)
      (Spec.rows (V m c main_v0) (V m c main_v1) (V m c main_v5) (V m c main_v6) (V m c main_v3) (V m c main_v4) (V m c main_v7)) := by
  show (cfg0.win 7).cut (grid0.coords t) ((dats m 0 c).after 7 t) = _
  rw [after0_7]
  unfold out0_7
  rw [View.canon_unit_zero zeros]
  simp only [View.ld_unit_zero (S := S4096x256) zeros, View.ld_unit_zero (S := S1x256) zeros, View.ld_unit_zero (S := S256x256) zeros]
  obtain ⟨-, -, -, -, -, -, -, -, -, -, -, -, -, -, e0, e1⟩ := block_indices t
  have ht : t.val < 32 := lt_of_lt_of_eq t.isLt N_0
  funext j
  show k0_pay1 (F := Ideal) (iblk m c 0 t) (iblk m c 1 t) (iblk m c 2 t) (iblk m c 3 t) (iblk m c 4 t) (iblk m c 5 t) (iblk m c 6 t) j
    = Spec.rows (V m c main_v0) (V m c main_v1) (V m c main_v5) (V m c main_v6) (V m c main_v3) (V m c main_v4) (V m c main_v7) (((cfg0.win 7).blk t).view.emb j)
  obtain ⟨p, q, rfl⟩ : ∃ (p : Fin 4096) (q : Fin 256), j = ix2 p q := ⟨j 0, j 1, eq_ix2 j⟩
  have hemb : ((cfg0.win 7).blk t).view.emb (ix2 p q) = ix2 (⟨4096 * t.val + p.val, by have := p.isLt; omega⟩ : Fin 131072) q :=
    funext fun a => Fin.ext (by
      match a with
      | ⟨0, _⟩ => show win0_7.index t (0 : Fin 2) * 4096 + 1 * p.val = 4096 * t.val + p.val; rw [e0]; omega
      | ⟨1, _⟩ => show win0_7.index t (1 : Fin 2) * 256 + 1 * q.val = q.val; rw [e1]; omega)
  rw [hemb]
  exact stored_is_rows (V m c main_v0) (V m c main_v1) (V m c main_v5) (V m c main_v6) (V m c main_v3) (V m c main_v4) (V m c main_v7)
    (iblk m c 0 t) (iblk m c 1 t) (iblk m c 2 t) (iblk m c 3 t) (iblk m c 4 t) (iblk m c 5 t) (iblk m c 6 t) t.val
    (read0 m c t) (read1 m c t) (read2 m c t) (read3 m c t) (read4 m c t) (read5 m c t) (read6 m c t) p q _ rfl

/-! ## The 32 blocks tile the array -/

/-- An index of the output array is in point t's block iff each coordinate is in the block's range on its axis. -/
theorem mem_blk (t : Fin cfg0.N) (i : S131072x256.Idx) :
    i ∈ ((cfg0.win 7).blk t).view.set ↔ ∀ a : Fin 2, win0_7.index t a * S4096x256.size a ≤ (i a).val ∧ (i a).val < win0_7.index t a * S4096x256.size a + S4096x256.size a := by
  show i ∈ ((View.whole main_v8).slice (win0_7.rect t)).set ↔ _
  rw [View.set_slice_whole, Rect.mem_set_unit]
  exact Iff.rfl

/-- Row r lies in the block of point r / 4096. -/
theorem covered (i : S131072x256.Idx) :
    ∃ t : Fin cfg0.N, (cfg0.win 7).flush t = true ∧ i ∈ ((cfg0.win 7).blk t).view.set := by
  have hi0 : (i 0).val < 131072 := (i 0).isLt
  have hi1 : (i 1).val < 256 := (i 1).isLt
  have hN : cfg0.N = 32 := N_0
  obtain ⟨t, ht⟩ : ∃ t : Fin cfg0.N, t.val = (i 0).val / 4096 := ⟨⟨(i 0).val / 4096, by rw [hN]; omega⟩, rfl⟩
  obtain ⟨-, -, -, -, -, -, -, -, -, -, -, -, -, -, e0, e1⟩ := block_indices t
  refine ⟨t, flush0_7 t, ?_⟩
  rw [mem_blk]
  intro a
  match a with
  | ⟨0, _⟩ => show win0_7.index t (0 : Fin 2) * 4096 ≤ (i 0).val ∧ (i 0).val < win0_7.index t (0 : Fin 2) * 4096 + 4096; rw [e0, ht]; omega
  | ⟨1, _⟩ => show win0_7.index t (1 : Fin 2) * 256 ≤ (i 1).val ∧ (i 1).val < win0_7.index t (1 : Fin 2) * 256 + 256; rw [e1]; omega

/-- THE OUTPUT ARRAY after the launch: `Spec.rows` of the operand arrays as the launch finds them. -/
theorem final (c : Dev nD) : (dats m 0 c).arrAt 7 cfg0.N
    = Spec.rows (V m c main_v0) (V m c main_v1) (V m c main_v5) (V m c main_v6) (V m c main_v3) (V m c main_v4) (V m c main_v7) :=
  (dats m 0 c).arrAt_eq_of_cover 7 _ (fun t _ => flushed_eq m c t) covered

end Cert.KernelIdeal.Blocks

end
-- ==== Proof.Found.lean ====
/-
  What the kernel's launch finds in each of its seven operand arrays: the host lines before it only re-arrange
  the arguments — the two inputs flattened to [131072,256], the three bias vectors as 1×256 rows, and the
  weight, as a [512,256] matrix, cut into its first and its last 256 rows.
-/
import proofs.«129288_j4561255268895_2_alg».proof.Proof.Gen.KernelIdeal.Frame
import Idealize.ShloMosaic.Lib.StableHlo.Run
import Idealize.ShloMosaic.PureOps.Ideal

noncomputable section

namespace Cert.KernelIdeal.Found

open Idealize.ShloMosaic Idealize.ShloMosaic.TcCoe Idealize.SL.Sem Cert.KernelIdeal Cert.KernelIdeal.Gen

variable (m : (ℓ : Loc nD τ sig) → Buf (Elt Ideal) ℓ)

/-- Operand 0: the first input, flattened. -/
theorem input0 (c : Dev nD) : (V m c main_v0 : S131072x256.Idx → EReal)
    = shapeCast S131072x256 (m ((c : Thread nD τ).loc main_arg0)) shapeCasts_S8x128x128x256_S131072x256 := by
  show StableHlo.after hostOps0 (fun b => m (c, b)) (Proc.devRef .tc main_v0) = _
  after_results; rfl

/-- Operand 1: the second input, flattened. -/
theorem input1 (c : Dev nD) : (V m c main_v1 : S131072x256.Idx → EReal)
    = shapeCast S131072x256 (m ((c : Thread nD τ).loc main_arg1)) shapeCasts_S8x128x128x256_S131072x256 := by
  show StableHlo.after hostOps0 (fun b => m (c, b)) (Proc.devRef .tc main_v1) = _
  after_results; rfl

/-- Operand 2: the first bias as a row. -/
theorem bias0 (c : Dev nD) : (V m c main_v5 : S1x256.Idx → EReal)
    = shapeCast S1x256 (m ((c : Thread nD τ).loc main_arg2)) shapeCasts_S256_S1x256 := by
  show StableHlo.after hostOps0 (fun b => m (c, b)) (Proc.devRef .tc main_v5) = _
  after_results; rfl

/-- Operand 3: the second bias as a row. -/
theorem bias1 (c : Dev nD) : (V m c main_v6 : S1x256.Idx → EReal)
    = shapeCast S1x256 (m ((c : Thread nD τ).loc main_arg3)) shapeCasts_S256_S1x256 := by
  show StableHlo.after hostOps0 (fun b => m (c, b)) (Proc.devRef .tc main_v6) = _
  after_results; rfl

/-- Operand 4: the first 256 rows of the weight matrix. -/
theorem weight0 (c : Dev nD) : (V m c main_v3 : S256x256.Idx → EReal)
    = extractStridedSlice S256x256 ![0, 0] (shapeCast S512x256 (m ((c : Thread nD τ).loc main_arg4)) shapeCasts_S1x1x512x256_S512x256) slices_S512x256_S256x256_0_0 := by
  show StableHlo.after hostOps0 (fun b => m (c, b)) (Proc.devRef .tc main_v3) = _
  after_results; rfl

/-- Operand 5: the last 256 rows of the weight matrix. -/
theorem weight1 (c : Dev nD) : (V m c main_v4 : S256x256.Idx → EReal)
    = extractStridedSlice S256x256 ![256, 0] (shapeCast S512x256 (m ((c : Thread nD τ).loc main_arg4)) shapeCasts_S1x1x512x256_S512x256) slices_S512x256_S256x256_256_0 := by
  show StableHlo.after hostOps0 (fun b => m (c, b)) (Proc.devRef .tc main_v4) = _
  after_results; rfl

/-- Operand 6: the output bias as a row. -/
theorem biasOut (c : Dev nD) : (V m c main_v7 : S1x256.Idx → EReal)
    = shapeCast S1x256 (m ((c : Thread nD τ).loc main_arg5)) shapeCasts_S256_S1x256 := by
  show StableHlo.after hostOps0 (fun b => m (c, b)) (Proc.devRef .tc main_v7) = _
  after_results; rfl

end Cert.KernelIdeal.Found

end
-- ==== Proof.Layout.lean ====
/-
  The flattened result, computed from the re-arranged arguments and un-flattened, is the result.

  With X0, X1 the inputs flattened to [131072,256], the biases as 1×256 rows and W0, W1 the first and the last 256
  rows of the weight as a [512,256] matrix, entry (r, q) of `Spec.rows` at r = (a·128 + b)·128 + c reads exactly the
  entries of the arguments that `Spec.out` reads at (a, b, c, q): the un-flattened array is `Spec.out`.
-/
import proofs.«129288_j4561255268895_2_alg».proof.Proof.Spec

noncomputable section

namespace Cert.Spec

open Idealize.ShloMosaic Idealize.ShloMosaic.ValueIdx

/-- The first 256 rows of a [512,256] matrix: entry (k, q) is entry (k, q). -/
theorem low_half_at (M : (⟨2, ![512, 256]⟩ : Shape).Idx → EReal)
    (h : (⟨2, ![512, 256]⟩ : Shape).Slices ![0, 0] ⟨2, ![256, 256]⟩) (k q : Fin 256) :
    extractStridedSlice (⟨2, ![256, 256]⟩ : Shape) ![0, 0] M h (ix2 k q)
      = M (ix2 (⟨k.val, Nat.lt_trans k.isLt (by decide)⟩ : Fin 512) q) :=
  half_at M 0 h k q _ (by show k.val = 0 + k.val; omega)

/-- The last 256 rows of a [512,256] matrix: entry (k, q) is entry (256 + k, q). -/
theorem high_half_at (M : (⟨2, ![512, 256]⟩ : Shape).Idx → EReal)
    (h : (⟨2, ![512, 256]⟩ : Shape).Slices ![256, 0] ⟨2, ![256, 256]⟩) (k q : Fin 256) :
    extractStridedSlice (⟨2, ![256, 256]⟩ : Shape) ![256, 0] M h (ix2 k q)
      = M (ix2 (⟨256 + k.val, by have := k.isLt; omega⟩ : Fin 512) q) :=
  half_at M 256 h k q _ rfl

/-- THE UN-FLATTENED FLAT RESULT of the re-arranged arguments is `Spec.out` of the arguments. -/
theorem unflat_rows (x0 x1 : (⟨4, ![8, 128, 128, 256]⟩ : Shape).Idx → EReal) (b0 b1 : (⟨1, ![256]⟩ : Shape).Idx → EReal)
    (w : (⟨4, ![1, 1, 512, 256]⟩ : Shape).Idx → EReal) (cb : (⟨1, ![256]⟩ : Shape).Idx → EReal)
    (hx : (⟨4, ![8, 128, 128, 256]⟩ : Shape).ShapeCasts ⟨2, ![131072, 256]⟩)
    (hb : (⟨1, ![256]⟩ : Shape).ShapeCasts ⟨2, ![1, 256]⟩)
    (hw : (⟨4, ![1, 1, 512, 256]⟩ : Shape).ShapeCasts ⟨2, ![512, 256]⟩)
    (hs0 : (⟨2, ![512, 256]⟩ : Shape).Slices ![0, 0] ⟨2, ![256, 256]⟩)
    (hs1 : (⟨2, ![512, 256]⟩ : Shape).Slices ![256, 0] ⟨2, ![256, 256]⟩)
    (hy : (⟨2, ![131072, 256]⟩ : Shape).ShapeCasts ⟨4, ![8, 128, 128, 256]⟩) :
    shapeCast (⟨4, ![8, 128, 128, 256]⟩ : Shape)
        (rows (shapeCast (⟨2, ![131072, 256]⟩ : Shape) x0 hx) (shapeCast (⟨2, ![131072, 256]⟩ : Shape) x1 hx)
          (shapeCast (⟨2, ![1, 256]⟩ : Shape) b0 hb) (shapeCast (⟨2, ![1, 256]⟩ : Shape) b1 hb)
          (extractStridedSlice (⟨2, ![256, 256]⟩ : Shape) ![0, 0] (shapeCast (⟨2, ![512, 256]⟩ : Shape) w hw) hs0)
          (extractStridedSlice (⟨2, ![256, 256]⟩ : Shape) ![256, 0] (shapeCast (⟨2, ![512, 256]⟩ : Shape) w hw) hs1)
          (shapeCast (⟨2, ![1, 256]⟩ : Shape) cb hb)) hy
      = fun i => out x0 x1 b0 b1 w cb (i 0) (i 1) (i 2) (i 3) := by
  funext i
  obtain ⟨a, b, c, q, rfl⟩ : ∃ (a : Fin 8) (b c : Fin 128) (q : Fin 256), i = ix4 a b c q := ⟨i 0, i 1, i 2, i 3, eq_ix4 i⟩
  have hlt : (a.val * 128 + b.val) * 128 + c.val < 131072 := by
    have := a.isLt; have := b.isLt; have := c.isLt; omega
  have e0 : ∀ k : Fin 256, shapeCast (⟨2, ![131072, 256]⟩ : Shape) x0 hx (ix2 (⟨(a.val * 128 + b.val) * 128 + c.val, hlt⟩ : Fin 131072) k) = x0 (ix4 a b c k) :=
    fun k => flat_at x0 hx a b c k _ rfl
  have e1 : ∀ k : Fin 256, shapeCast (⟨2, ![131072, 256]⟩ : Shape) x1 hx (ix2 (⟨(a.val * 128 + b.val) * 128 + c.val, hlt⟩ : Fin 131072) k) = x1 (ix4 a b c k) :=
    fun k => flat_at x1 hx a b c k _ rfl
  rw [unflat_at _ hy a b c q ⟨(a.val * 128 + b.val) * 128 + c.val, hlt⟩ rfl, rows_apply]
  unfold rowsAt
  simp only [e0, e1, row_at, low_half_at, high_half_at, weight_at]
  rfl

end Cert.Spec

end
-- ==== Proof.KernelRun.lean ====
/-
  The idealized kernel's whole run: its result array, entry by entry, and its arguments unchanged.

  After the launch the one remaining host line un-flattens the launch's [131072,256] output to [8,128,128,256].
  That output is `Spec.rows` of the operand arrays the launch found, which are re-arrangements of the arguments,
  so the result is `Spec.out` of the arguments.
-/
import proofs.«129288_j4561255268895_2_alg».proof.Proof.Blocks
import proofs.«129288_j4561255268895_2_alg».proof.Proof.Found
import proofs.«129288_j4561255268895_2_alg».proof.Proof.Layout
import Idealize.ShloMosaic.Lib.StableHlo.Run

noncomputable section

namespace Cert.KernelIdeal.KernelRun

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- The result buffer after the host line that follows the launch: the launch's output array, un-flattened. -/
theorem tail_eq (c : Dev nD) :
    (Pipeline.afterTail₀ cfgs (dats m) 0 (V0 m) [hostOps1] c main_v9 : S8x128x128x256.Idx → EReal)
      = shapeCast S8x128x128x256 ((dats m 0 c).arrAt 7 cfg0.N) shapeCasts_S131072x256_S8x128x128x256 := by
  unfold Pipeline.afterTail₀
  show StableHlo.after hostOps1 _ (Proc.devRef .tc main_v9) = _
  after_results
  have e : Pipeline.withArrays (cfgs 0).spec c (V0 m c) (fun w => (dats m 0 c).arrAt w (cfgs 0).N) (Proc.devRef .tc main_v8)
      = (dats m 0 c).arrAt 7 cfg0.N :=
    Pipeline.withArrays_arr spec0 launch0.win.arr_inj c (V0 m c) _ 7
  rw [e]
  rfl

/-- The result array as a function of the arguments: `Spec.out`, entry by entry. -/
abbrev result (c : Dev nD) : S8x128x128x256.Idx → EReal := fun i =>
  Spec.out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (i 0) (i 1) (i 2) (i 3)

/-- What the result buffer ends holding is `result`. -/
theorem result_eq (c : Dev nD) :
    (Pipeline.afterTail₀ cfgs (dats m) 0 (V0 m) [hostOps1] c main_v9 : S8x128x128x256.Idx → EReal) = result m c := by
  rw [tail_eq, Blocks.final, Found.input0, Found.input1, Found.bias0, Found.bias1, Found.weight0, Found.weight1, Found.biasOut]
  exact Spec.unflat_rows _ _ _ _ _ _ _ _ _ _ _ _

/-- THE RUN, READ: every weakly fair execution terminates with the result array at `result` and the arguments unchanged. -/
theorem run : θ_run defs (onTc (τ := τ) (main (F := Ideal))) ⟨m, fun _ => 0, ρ⟩ (fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v9 (Pipeline.mem_restRefs_of main_v9 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KernelRun

end
-- ==== Proof.RefValue.lean ====
/-
  The reference's result, read at one entry.

  The reference adds each bias along the last axis, joins the two biased inputs along that axis into 512 channels,
  contracts the 512 channels with the weight (as a [512,256] matrix), adds the output bias and rectifies. Channel j
  of the joined array is channel j of the first biased input for j < 256 and channel j − 256 of the second
  otherwise, so the one sum over 512 channels is the two sums over 256 channels of `Spec.out`, added.
-/
import proofs.«129288_j4561255268895_2_alg».proof.Proof.Gen.ReferenceIdeal.Read
import proofs.«129288_j4561255268895_2_alg».proof.Proof.Spec

noncomputable section

namespace Cert.ReferenceIdeal.RefValue

open Idealize.ShloMosaic Idealize.ShloMosaic.ValueIdx Cert.ReferenceIdeal Cert.ReferenceIdeal.Gen Cert.ReferenceIdeal.Read

/-- The first biased input at (a, b, c, k). -/
theorem biased0_at (x0 : (⟨S8x128x128x256, .f32⟩ : BufTy).Contents (Elt Ideal)) (b0 : (⟨S256, .f32⟩ : BufTy).Contents (Elt Ideal))
    (a : Fin 8) (b c : Fin 128) (k : Fin 256) :
    val_main_v2 (F := Ideal) x0 b0 (ix4 a b c k) = x0 (ix4 a b c k) + b0 (ix1 k) := by
  rw [val_main_v2_apply, val_main_v1_apply, val_main_v0_apply]
  show x0 (ix4 a b c k) + b0 _ = _
  exact congrArg (fun y => x0 (ix4 a b c k) + b0 y) (funext fun d => match d with | ⟨0, _⟩ => rfl)

/-- The second biased input at (a, b, c, k). -/
theorem biased1_at (x1 : (⟨S8x128x128x256, .f32⟩ : BufTy).Contents (Elt Ideal)) (b1 : (⟨S256, .f32⟩ : BufTy).Contents (Elt Ideal))
    (a : Fin 8) (b c : Fin 128) (k : Fin 256) :
    val_main_v5 (F := Ideal) x1 b1 (ix4 a b c k) = x1 (ix4 a b c k) + b1 (ix1 k) := by
  rw [val_main_v5_apply, val_main_v4_apply, val_main_v3_apply]
  show x1 (ix4 a b c k) + b1 _ = _
  exact congrArg (fun y => x1 (ix4 a b c k) + b1 y) (funext fun d => match d with | ⟨0, _⟩ => rfl)

/-- A channel below 256 of the joined array is that channel of the first biased input. -/
theorem joined_low (x0 x1 : (⟨S8x128x128x256, .f32⟩ : BufTy).Contents (Elt Ideal)) (b0 b1 : (⟨S256, .f32⟩ : BufTy).Contents (Elt Ideal))
    (a : Fin 8) (b c : Fin 128) (k : Fin 256) :
    val_main_v6 (F := Ideal) x0 x1 b0 b1 (ix4 a b c (⟨k.val, Nat.lt_trans k.isLt (by decide)⟩ : Fin 512))
      = val_main_v2 (F := Ideal) x0 b0 (ix4 a b c k) := by
  unfold val_main_v6
  exact concatenate_pair_apply_left (t := S8x128x128x512) (s₁ := S8x128x128x256) (s₂ := S8x128x128x256) (3 : Fin 4)
    (val_main_v2 (F := Ideal) x0 b0) (val_main_v5 (F := Ideal) x1 b1) concatenates_S8x128x128x256_S8x128x128x256_S8x128x128x512_d3
    (ix4 a b c (⟨k.val, Nat.lt_trans k.isLt (by decide)⟩ : Fin 512)) rfl (ix4 a b c k)
    (fun d => by match d with | ⟨0, _⟩ => rfl | ⟨1, _⟩ => rfl | ⟨2, _⟩ => rfl | ⟨3, _⟩ => rfl)

/-- A channel 256 + k of the joined array is channel k of the second biased input. -/
theorem joined_high (x0 x1 : (⟨S8x128x128x256, .f32⟩ : BufTy).Contents (Elt Ideal)) (b0 b1 : (⟨S256, .f32⟩ : BufTy).Contents (Elt Ideal))
    (a : Fin 8) (b c : Fin 128) (k : Fin 256) :
    val_main_v6 (F := Ideal) x0 x1 b0 b1 (ix4 a b c (⟨256 + k.val, by have := k.isLt; omega⟩ : Fin 512))
      = val_main_v5 (F := Ideal) x1 b1 (ix4 a b c k) := by
  unfold val_main_v6
  exact concatenate_pair_apply_right (t := S8x128x128x512) (s₁ := S8x128x128x256) (s₂ := S8x128x128x256) (3 : Fin 4)
    (val_main_v2 (F := Ideal) x0 b0) (val_main_v5 (F := Ideal) x1 b1) concatenates_S8x128x128x256_S8x128x128x256_S8x128x128x512_d3
    (ix4 a b c (⟨256 + k.val, by have := k.isLt; omega⟩ : Fin 512)) rfl rfl (ix4 a b c k)
    (fun d hd => by
      match d with
      | ⟨0, _⟩ => rfl
      | ⟨1, _⟩ => rfl
      | ⟨2, _⟩ => rfl
      | ⟨3, _⟩ => exact absurd rfl hd)
    (by show k.val + 256 = 256 + k.val; omega)

/-- The weight matrix at (j, q). -/
theorem weight_read (w : (⟨S1x1x512x256, .f32⟩ : BufTy).Contents (Elt Ideal)) (j : Fin 512) (q : Fin 256) :
    val_main_v7 (F := Ideal) w (ix2 j q) = w (ix4 (0 : Fin 1) (0 : Fin 1) j q) := by
  unfold val_main_v7
  exact Spec.weight_at w shapeCasts_S1x1x512x256_S512x256 j q

/-- The output bias broadcast over the leading axes, at (a, b, c, q). -/
theorem bias_out_at (cb : (⟨S256, .f32⟩ : BufTy).Contents (Elt Ideal)) (a : Fin 8) (b c : Fin 128) (q : Fin 256) :
    val_main_v10 (F := Ideal) cb (ix4 a b c q) = cb (ix1 q) := by
  rw [val_main_v10_apply, val_main_v9_apply]
  exact congrArg cb (funext fun d => match d with | ⟨0, _⟩ => rfl)

/-- The rectifier's zero, broadcast. -/
theorem zero_at (i : S8x128x128x256.Idx) : val_main_call0_v0 (F := Ideal) i = Ideal.ofBits .f32 0x00000000#32 := by
  rw [val_main_call0_v0_apply, val_main_call0_cst_apply]
  rfl

/-- THE REFERENCE'S RESULT at (a, b, c, q) is `Spec.out` of the arguments there. -/
theorem result_at (x0 x1 : (⟨S8x128x128x256, .f32⟩ : BufTy).Contents (Elt Ideal)) (b0 b1 : (⟨S256, .f32⟩ : BufTy).Contents (Elt Ideal))
    (w : (⟨S1x1x512x256, .f32⟩ : BufTy).Contents (Elt Ideal)) (cb : (⟨S256, .f32⟩ : BufTy).Contents (Elt Ideal))
    (a : Fin 8) (b c : Fin 128) (q : Fin 256) :
    val_main_v12 (F := Ideal) x0 x1 b0 b1 w cb (ix4 a b c q) = Spec.out x0 x1 b0 b1 w cb a b c q := by
  have hl : ∀ k : Fin 512, lidx_main_v8 (ix4 a b c q) k = ix4 a b c k := fun k =>
    funext fun d => match d with | ⟨0, _⟩ => rfl | ⟨1, _⟩ => rfl | ⟨2, _⟩ => rfl | ⟨3, _⟩ => rfl
  have hr : ∀ k : Fin 512, ridx_main_v8 (ix4 a b c q) k = ix2 k q := fun k =>
    funext fun d => match d with | ⟨0, _⟩ => rfl | ⟨1, _⟩ => rfl
  rw [val_main_v12_apply, val_main_v11_apply, val_main_v8_apply, Spec.sum_halves, zero_at, bias_out_at]
  simp only [hl, hr, joined_low, joined_high, biased0_at, biased1_at, weight_read]
  rfl

/-- The reference's result array, whole. -/
theorem result_eq (x0 x1 : (⟨S8x128x128x256, .f32⟩ : BufTy).Contents (Elt Ideal)) (b0 b1 : (⟨S256, .f32⟩ : BufTy).Contents (Elt Ideal))
    (w : (⟨S1x1x512x256, .f32⟩ : BufTy).Contents (Elt Ideal)) (cb : (⟨S256, .f32⟩ : BufTy).Contents (Elt Ideal)) :
    val_main_v12 (F := Ideal) x0 x1 b0 b1 w cb = fun i => Spec.out x0 x1 b0 b1 w cb (i 0) (i 1) (i 2) (i 3) := by
  funext i
  obtain ⟨a, b, c, q, rfl⟩ : ∃ (a : Fin 8) (b c : Fin 128) (q : Fin 256), i = ix4 a b c q := ⟨i 0, i 1, i 2, i 3, eq_ix4 i⟩
  exact result_at x0 x1 b0 b1 w cb a b c q

end Cert.ReferenceIdeal.RefValue

end
-- ==== Proof.lean ====
/-
  The five claims of this certificate.

  Kernel: out = relu((x0 + b0) · W0 + (x1 + b1) · W1 + cb) over the inputs flattened to [131072,256], W0 and W1 the
  first and the last 256 rows of the 1×1 convolution's [512,256] weight, 4096 rows per grid point, the result
  un-flattened. Reference: relu(concat(x0 + b0, x1 + b1) · W + cb), one contraction over all 512 channels.

  With floats read as extended reals and operations exact, a change of format is the identity, a matrix product into a
  zero accumulator is a plain sum, and both results are, entry (a, b, c, q),
      max ( Σ_{k<256} (x0[a,b,c,k] + b0[k]) · w[0,0,k,q] + Σ_{k<256} (x1[a,b,c,k] + b1[k]) · w[0,0,256+k,q] + cb[q] , 0 )
  (`Spec.out`): the reference's sum over 512 channels of the concatenation splits into these two sums, which needs only
  that addition of extended reals is commutative and associative — the precondition (finite inputs) is not used.

  The three frames are the generated frame runs (the reference's is its generated run with the result dropped); no
  operation was rewritten by the idealization, so there is nothing to preserve; the kernel's value is read off its frame run
  (Body, Found, Blocks, KernelRun), the reference's off its generated run (RefValue).
-/
import proofs.«129288_j4561255268895_2_alg».proof.Defs
import proofs.«129288_j4561255268895_2_alg».proof.Proof.Gen.Kernel
import proofs.«129288_j4561255268895_2_alg».proof.Proof.Gen.Kernel.Skeleton
import proofs.«129288_j4561255268895_2_alg».proof.Proof.Gen.Kernel.Launch
import proofs.«129288_j4561255268895_2_alg».proof.Proof.Gen.Kernel.Points
import proofs.«129288_j4561255268895_2_alg».proof.Proof.Gen.Kernel.Frame
import proofs.«129288_j4561255268895_2_alg».proof.Proof.Gen.KernelIdeal
import proofs.«129288_j4561255268895_2_alg».proof.Proof.Gen.KernelIdeal.Skeleton
import proofs.«129288_j4561255268895_2_alg».proof.Proof.Gen.KernelIdeal.Launch
import proofs.«129288_j4561255268895_2_alg».proof.Proof.Gen.KernelIdeal.Points
import proofs.«129288_j4561255268895_2_alg».proof.Proof.Gen.KernelIdeal.Frame
import proofs.«129288_j4561255268895_2_alg».proof.Proof.Gen.ReferenceIdeal
import proofs.«129288_j4561255268895_2_alg».proof.Proof.Gen.Pre_finite_inputs
import proofs.«129288_j4561255268895_2_alg».proof.Proof.Gen.ReferenceIdeal.Run
import proofs.«129288_j4561255268895_2_alg».proof.Proof.Gen.ReferenceIdeal.Read
import proofs.«129288_j4561255268895_2_alg».proof.Proof.KernelRun
import proofs.«129288_j4561255268895_2_alg».proof.Proof.RefValue
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs, from memories agreeing on the arguments, end with the result array at `Spec.out` of the
    arguments, entry by entry. -/
theorem algebraic : Cert.algebraic_KernelIdeal_ReferenceIdeal := by
  intro m ρ m' ρ' _ hagree
  refine ⟨fun c => Cert.KernelIdeal.KernelRun.result m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [Cert.ReferenceIdeal.Read.val_main_v12_eq, Cert.ReferenceIdeal.RefValue.result_eq, e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
